-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S400000 : Shape := ⟨1, ![400000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S20000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : IVec S1000000 32) (main_arg13 : IVec S1000000 32) (main_arg14 : IVec S400000 32) (main_arg15 : IVec S400000 32) (main_arg16 : IVec S400000 32) (main_arg17 : IVec S400000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S400000 : Shape := ⟨1, ![400000]⟩
abbrev S1x128 : Shape := ⟨2, ![1, 128]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S400000x1 : Shape := ⟨2, ![400000, 1]⟩
abbrev S400000x128 : Shape := ⟨2, ![400000, 128]⟩
abbrev S20000 : Shape := ⟨1, ![20000]⟩
abbrev S20000x1 : Shape := ⟨2, ![20000, 1]⟩
abbrev S120000x128 : Shape := ⟨2, ![120000, 128]⟩

abbrev nBuf : Space → Nat
  | .hbm => 106
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1000000, .i32⟩
  | .hbm, ⟨13, _⟩ => ⟨S1000000, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S20000x128, .f32⟩
  | .hbm, ⟨27, _⟩ => ⟨S20000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x128, .f32⟩
  | .hbm, ⟨37, _⟩ => ⟨S_, .f32⟩
  | .hbm, ⟨38, _⟩ => ⟨S100000x128, .f32⟩
  | .hbm, ⟨39, _⟩ => ⟨S1000000x1, .i32⟩
  | .hbm, ⟨40, _⟩ => ⟨S100000x128, .f32⟩
  | .hbm, ⟨41, _⟩ => ⟨S_, .f32⟩
  | .hbm, ⟨42, _⟩ => ⟨S1000000, .f32⟩
  | .hbm, ⟨43, _⟩ => ⟨S_, .f32⟩
  | .hbm, ⟨44, _⟩ => ⟨S100000, .f32⟩
  | .hbm, ⟨45, _⟩ => ⟨S1000000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .f32⟩
  | .hbm, ⟨62, _⟩ => ⟨S_, .f32⟩
  | .hbm, ⟨63, _⟩ => ⟨S100000x128, .f32⟩
  | .hbm, ⟨64, _⟩ => ⟨S400000x1, .i32⟩
  | .hbm, ⟨65, _⟩ => ⟨S100000x128, .f32⟩
  | .hbm, ⟨66, _⟩ => ⟨S_, .f32⟩
  | .hbm, ⟨67, _⟩ => ⟨S400000, .f32⟩
  | .hbm, ⟨68, _⟩ => ⟨S_, .f32⟩
  | .hbm, ⟨69, _⟩ => ⟨S100000, .f32⟩
  | .hbm, ⟨70, _⟩ => ⟨S400000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S400000, .i32⟩
  | .hbm, ⟨80, _⟩ => ⟨S400000, .i1⟩
  | .hbm, ⟨81, _⟩ => ⟨S_, .i32⟩
  | .hbm, ⟨82, _⟩ => ⟨S400000, .i32⟩
  | .hbm, ⟨83, _⟩ => ⟨S400000, .i32⟩
  | .hbm, ⟨84, _⟩ => ⟨S400000, .i32⟩
  | .hbm, ⟨85, _⟩ => ⟨S400000x1, .i32⟩
  | .hbm, ⟨86, _⟩ => ⟨S400000x128, .f32⟩
  | .hbm, ⟨87, _⟩ => ⟨S_, .f32⟩
  | .hbm, ⟨88, _⟩ => ⟨S20000x128, .f32⟩
  | .hbm, ⟨89, _⟩ => ⟨S400000x1, .i32⟩
  | .hbm, ⟨90, _⟩ => ⟨S20000x128, .f32⟩
  | .hbm, ⟨91, _⟩ => ⟨S_, .f32⟩
  | .hbm, ⟨92, _⟩ => ⟨S400000, .f32⟩
  | .hbm, ⟨93, _⟩ => ⟨S_, .f32⟩
  | .hbm, ⟨94, _⟩ => ⟨S20000, .f32⟩
  | .hbm, ⟨95, _⟩ => ⟨S400000x1, .i32⟩
  | .hbm, ⟨96, _⟩ => ⟨S20000, .f32⟩
  | .hbm, ⟨97, _⟩ => ⟨S_, .f32⟩
  | .hbm, ⟨98, _⟩ => ⟨S20000, .f32⟩
  | .hbm, ⟨99, _⟩ => ⟨S20000, .f32⟩
  | .hbm, ⟨100, _⟩ => ⟨S20000x1, .f32⟩
  | .hbm, ⟨101, _⟩ => ⟨S20000x128, .f32⟩
  | .hbm, ⟨102, _⟩ => ⟨S20000x128, .f32⟩
  | .hbm, ⟨103, _⟩ => ⟨S100000x128, .f32⟩
  | .hbm, ⟨104, _⟩ => ⟨S20000x128, .f32⟩
  | .hbm, ⟨105, _⟩ => ⟨S120000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev main_c : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_13 : Ref sig .tc := ⟨.hbm, 91, rfl⟩
abbrev main_v55 : Ref sig .tc := ⟨.hbm, 92, rfl⟩
abbrev main_cst_14 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S5000x128_S5000x128 : S5000x128.ShapeCasts S5000x128
  concatenates_S100000x128_S20000x128_S120000x128_d0 : Shape.Concatenates [S100000x128, S20000x128] S120000x128 0
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S20000x128_S400000x1_S400000x128_1_0_n_n_0_1_1128_wf : GatherDims.WF S20000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S20000x128_S400000x1_S400000x128_1_0_0_1_wf : ScatterDims.WF S20000x128 S400000x1 S400000x128 [1] [0] [0] 1
  scatter_S20000_S400000x1_S400000_n_0_0_1_wf : ScatterDims.WF S20000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S20000x128.size a
  hwx1_5 : ∀ i : grid1.Coords, EltTy.bits .f32 = 32 ∨ (Rect.block (s := S20000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S20000x128.size a
  hwx1_6 : ∀ i : grid1.Coords, EltTy.bits .f32 = 32 ∨ (Rect.block (s := S20000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S20000x128.size a
  hwx3_1 : ∀ i : grid3.Coords, EltTy.bits .f32 = 32 ∨ (Rect.block (s := S20000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S20000x128.size a
  hwx3_2 : ∀ i : grid3.Coords, EltTy.bits .f32 = 32 ∨ (Rect.block (s := S20000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_2) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S400000 : Shape := ⟨1, ![400000]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S400000x1 : Shape := ⟨2, ![400000, 1]⟩
abbrev S400000x128 : Shape := ⟨2, ![400000, 128]⟩
abbrev S20000 : Shape := ⟨1, ![20000]⟩
abbrev S20000x1 : Shape := ⟨2, ![20000, 1]⟩
abbrev S120000x128 : Shape := ⟨2, ![120000, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1000000, .i32⟩
  | .hbm, ⟨13, _⟩ => ⟨S1000000, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x128, .f32⟩
  | .hbm, ⟨32, _⟩ => ⟨S_, .f32⟩
  | .hbm, ⟨33, _⟩ => ⟨S100000x128, .f32⟩
  | .hbm, ⟨34, _⟩ => ⟨S1000000x1, .i32⟩
  | .hbm, ⟨35, _⟩ => ⟨S100000x128, .f32⟩
  | .hbm, ⟨36, _⟩ => ⟨S_, .f32⟩
  | .hbm, ⟨37, _⟩ => ⟨S1000000, .f32⟩
  | .hbm, ⟨38, _⟩ => ⟨S_, .f32⟩
  | .hbm, ⟨39, _⟩ => ⟨S100000, .f32⟩
  | .hbm, ⟨40, _⟩ => ⟨S1000000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S20000x128, .f32⟩
  | .hbm, ⟨50, _⟩ => ⟨S1x128, .f32⟩
  | .hbm, ⟨51, _⟩ => ⟨S20000x128, .f32⟩
  | .hbm, ⟨52, _⟩ => ⟨S20000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x128, .f32⟩
  | .hbm, ⟨62, _⟩ => ⟨S_, .f32⟩
  | .hbm, ⟨63, _⟩ => ⟨S100000x128, .f32⟩
  | .hbm, ⟨64, _⟩ => ⟨S400000x1, .i32⟩
  | .hbm, ⟨65, _⟩ => ⟨S100000x128, .f32⟩
  | .hbm, ⟨66, _⟩ => ⟨S_, .f32⟩
  | .hbm, ⟨67, _⟩ => ⟨S400000, .f32⟩
  | .hbm, ⟨68, _⟩ => ⟨S_, .f32⟩
  | .hbm, ⟨69, _⟩ => ⟨S100000, .f32⟩
  | .hbm, ⟨70, _⟩ => ⟨S400000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S400000, .i32⟩
  | .hbm, ⟨89, _⟩ => ⟨S400000, .i1⟩
  | .hbm, ⟨90, _⟩ => ⟨S_, .i32⟩
  | .hbm, ⟨91, _⟩ => ⟨S400000, .i32⟩
  | .hbm, ⟨92, _⟩ => ⟨S400000, .i32⟩
  | .hbm, ⟨93, _⟩ => ⟨S400000, .i32⟩
  | .hbm, ⟨94, _⟩ => ⟨S400000x1, .i32⟩
  | .hbm, ⟨95, _⟩ => ⟨S400000x128, .f32⟩
  | .hbm, ⟨96, _⟩ => ⟨S_, .f32⟩
  | .hbm, ⟨97, _⟩ => ⟨S20000x128, .f32⟩
  | .hbm, ⟨98, _⟩ => ⟨S400000x1, .i32⟩
  | .hbm, ⟨99, _⟩ => ⟨S20000x128, .f32⟩
  | .hbm, ⟨100, _⟩ => ⟨S_, .f32⟩
  | .hbm, ⟨101, _⟩ => ⟨S400000, .f32⟩
  | .hbm, ⟨102, _⟩ => ⟨S_, .f32⟩
  | .hbm, ⟨103, _⟩ => ⟨S20000, .f32⟩
  | .hbm, ⟨104, _⟩ => ⟨S400000x1, .i32⟩
  | .hbm, ⟨105, _⟩ => ⟨S20000, .f32⟩
  | .hbm, ⟨106, _⟩ => ⟨S_, .f32⟩
  | .hbm, ⟨107, _⟩ => ⟨S20000, .f32⟩
  | .hbm, ⟨108, _⟩ => ⟨S20000, .f32⟩
  | .hbm, ⟨109, _⟩ => ⟨S20000x1, .f32⟩
  | .hbm, ⟨110, _⟩ => ⟨S20000x128, .f32⟩
  | .hbm, ⟨111, _⟩ => ⟨S20000x128, .f32⟩
  | .hbm, ⟨112, _⟩ => ⟨S128x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S128x128, .f32⟩
  | .hbm, ⟨119, _⟩ => ⟨S20000x128, .f32⟩
  | .hbm, ⟨120, _⟩ => ⟨S1x128, .f32⟩
  | .hbm, ⟨121, _⟩ => ⟨S20000x128, .f32⟩
  | .hbm, ⟨122, _⟩ => ⟨S20000x128, .f32⟩
  | .hbm, ⟨123, _⟩ => ⟨S20000x128, .f32⟩
  | .hbm, ⟨124, _⟩ => ⟨S120000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S20000x128_0_1 : S1x128.BroadcastsInDim S20000x128 (![0, 1] : Fin 2 → Fin S20000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  concatenates_S100000x128_S20000x128_S120000x128_d0 : Shape.Concatenates [S100000x128, S20000x128] S120000x128 0
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S20000x128_S128x128_S20000x128_1_0_0_1_n_n_wf : DotDims.WF S20000x128 S128x128 S20000x128 [1] [0] [0] [1] [] []
  gather_S20000x128_S400000x1_S400000x128_1_0_n_n_0_1_1128_wf : GatherDims.WF S20000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S20000x128_S400000x1_S400000x128_1_0_0_1_wf : ScatterDims.WF S20000x128 S400000x1 S400000x128 [1] [0] [0] 1
  scatter_S20000_S400000x1_S400000_n_0_0_1_wf : ScatterDims.WF S20000 S400000x1 S400000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf

class Facts : Prop extends Facts₀ where

variable [Facts]
-- ==== Proof.RunAll.lean ====
/-
  The kernel program's run with every buffer named at the end.

  The program is eight segments: a stretch of host operations, the gene tables' affine maps, a second stretch, the drug
  tables' affine maps, the long stretch that gathers along edges and averages per destination, the two combines, and the
  closing concatenation. The memory at each boundary is a fold from the launch memory: a stretch applies its operations,
  a tiled call leaves each of its arrays at what its write-backs leave and everything else alone. Every weakly fair
  execution terminates, nothing faulting, with every buffer that outlives a call at the LAST boundary's contents.
  This is the launch theorem for a list of segments, applied to the program's segments with the final thread state read
  against the final memory; keeping the whole final valuation (rather than only the arguments) is what lets the result
  buffer be read off afterwards.
-/
import proofs.«146550_j58265526338344_1_alg».proof.Proof.Gen.KernelIdeal.Frame

set_option maxRecDepth 16384

noncomputable section

namespace Cert.GraphLayer.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The result buffer and the eighteen arguments at the end of every execution. -/
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)
    (run_all m ρ)

end Cert.GraphLayer.Kernel

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«146550_j58265526338344_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibEluStage.lean ====
/-
  An affine stage, and the exponential linear unit after it, on the extended reals — in the two spellings that
  lower from "x @ w + b" and from "where(y > 0, y, exp(y) - 1)" against "elu(y)".

  For an M×K array x, a K×N weight w and a bias given as a one-row array b (shape [1, N]) the affine stage is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast
    to its own shape) spread over the rows, is the affine stage.
  * affine_of_dotGeneral: the host's product over the same dimension numbers plus the bias row spread along the axes
    [0, 1] is the affine stage.
  * affine_rows: a row of the stage depends on x only through the same row of x, so a block of rows of x gives that
    block of the stage (for kernels that tile the rows over a grid).
  * row_of_vector_cast, row_of_vector_bcast: a length-N vector made a [1, N] row by a reshape, or by a broadcast that
    keeps axis 1, reads the vector's entry c at (0, c); so the two rows are one array (row_cast_eq_bcast).

  The unit: elu y is y where the comparison y > 0 answers 1, and e^y − 1 elsewhere (the comparison against the zero word,
  the 1 written as the word 0x3F800000).
  * elu_of_where: the kernel's spelling select(y > 0, y, exp y − 1), with splat scalar constants, is elu entry by entry.
  * elu_of_expm1: the host's spelling select(y > 0, y, 1·expm1(select(y > 0, 0, y))), with rank-0 constants spread
    along no axis, is elu entry by entry: where the comparison answers 1 both give y; elsewhere the inner select
    gives y back, expm1 y is e^y − 1 by definition, and 1·z = z on the extended reals.
  No finiteness hypothesis anywhere. Over the library, the plain-product lemmas, the dense-stage row lemmas, the
  word spellings and the host-broadcast lemmas; every extent is a variable.
-/
import Idealize.ShloMosaic.PureOps.Ideal.Laws
import Idealize.ShloMosaic.Lib.ValueIdx
import Idealize.ShloMosaic.Lib.Pipeline.Value
import proofs.«146550_j58265526338344_1_alg».proof.Proof.LibPlainDot
import proofs.«146550_j58265526338344_1_alg».proof.Proof.LibDenseStage
import proofs.«146550_j58265526338344_1_alg».proof.Proof.LibSpellings
import proofs.«146550_j58265526338344_1_alg».proof.Proof.LibHostBroadcast

noncomputable section

namespace Cert.LibEluStage

open Idealize.ShloMosaic Idealize.ShloMosaic.ValueIdx

variable (M K N : Nat)

/-! ## The affine stage -/

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- Row a' of a block's stage is row a of the whole's, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The matrix unit's spelling of the affine stage. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the affine stage. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-! ## A vector as a one-row array -/

/-- A length-N vector reshaped to a [1, N] row reads, at (0, c), the vector's entry c. -/
theorem row_of_vector_cast {α : Type} (v : (⟨1, ![N]⟩ : Shape).Idx → α) (h : (⟨1, ![N]⟩ : Shape).ShapeCasts ⟨2, ![1, N]⟩)
    (u : Fin 1) (c : Fin N) : shapeCast ⟨2, ![1, N]⟩ v h (ix2 u c) = v (ix1 c) :=
  shapeCast_apply v h _ _ (by
    rw [Shape.rowMajor_val_two, Shape.rowMajor_val_one]
    show c.val = u.val * N + c.val
    have hu : u.val = 0 := Nat.lt_one_iff.mp u.isLt
    rw [hu, Nat.zero_mul, Nat.zero_add])

/-- The reshape and the axis-1 broadcast of a vector to a one-row array are one array. -/
theorem row_cast_eq_bcast {α : Type} (v : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    broadcastInDim ⟨2, ![1, N]⟩ ![1] h' v = shapeCast ⟨2, ![1, N]⟩ v h := by
  funext i
  obtain ⟨u, c, rfl⟩ : ∃ (u : Fin 1) (c : Fin N), i = ix2 u c := ⟨i 0, i 1, eq_ix2 i⟩
  rw [Cert.LibHostBroadcast.vec_to_row, row_of_vector_cast]

/-! ## The exponential linear unit -/

/-- y where y > 0 answers 1, e^y − 1 elsewhere. -/
def elu (y : Ideal .f32) : Ideal .f32 :=
  Scalar.select (FloatOps.cmpf .ogt y (Ideal.ofBits .f32 0x00000000#32)) y (Ideal.exp y - Ideal.ofBits .f32 0x3F800000#32)

/-- The kernel's spelling. -/
theorem elu_of_where {s : Shape} (y : FVec Ideal s .f32) :
    select (cmpf .ogt y (broadcast s (Scalar.ofBits (F := Ideal) .f32 0x00000000#32))) y
      (subf (exp y) (broadcast s (Scalar.ofBits (F := Ideal) .f32 0x3F800000#32)))
      = fun i => elu (y i) := rfl

/-- The host's spelling. -/
theorem elu_of_expm1 {s : Shape} (y : FVec Ideal s .f32)
    (h0 : (⟨0, ![]⟩ : Shape).BroadcastsInDim s (![] : Fin 0 → Fin s.rank)) :
    select (cmpf .ogt y (broadcastInDim s ![] h0 (constant (F := Ideal) ⟨0, ![]⟩ .f32 0x00000000#32))) y
      (mulf (broadcastInDim s ![] h0 (constant (F := Ideal) ⟨0, ![]⟩ .f32 0x3F800000#32))
        (Host.expm1 (select (cmpf .ogt y (broadcastInDim s ![] h0 (constant (F := Ideal) ⟨0, ![]⟩ .f32 0x00000000#32)))
          (broadcastInDim s ![] h0 (id (constant (F := Ideal) ⟨0, ![]⟩ .f32 0x00000000#32))) y)))
      = fun i => elu (y i) := by
  funext i
  have hz : broadcastInDim s ![] h0 (constant (F := Ideal) ⟨0, ![]⟩ .f32 0x00000000#32) i = Ideal.ofBits .f32 0x00000000#32 :=
    Cert.LibHostBroadcast.scalar_to_any _ h0 i
  have ho : broadcastInDim s ![] h0 (constant (F := Ideal) ⟨0, ![]⟩ .f32 0x3F800000#32) i = Ideal.ofBits .f32 0x3F800000#32 :=
    Cert.LibHostBroadcast.scalar_to_any _ h0 i
  rw [select_apply, cmpf_apply, hz, mulf_apply, ho]
  show Scalar.select _ (y i) (Ideal.ofBits .f32 0x3F800000#32 * (Ideal.exp (select _ _ y i) - 1)) = elu (y i)
  rw [select_apply, cmpf_apply, hz]
  unfold elu
  rcases BitVec.eq_zero_or_eq_one (FloatOps.cmpf (F := Ideal) .ogt (y i) (Ideal.ofBits .f32 0x00000000#32)) with hc | hc
  · rw [hc, select_zero, select_zero, select_zero, Cert.LibSpellings.ofBits_one_f32, one_mul]
  · rw [hc, select_one, select_one]

end Cert.LibEluStage

end
-- ==== Proof.Stage.lean ====
/-
  One layer of message passing on a graph with two kinds of node, as functions on the extended reals.

  A node table is an M×128 array x. An affine map of it through a 128×128 weight W and a bias b is
      lin x W b (a, c) = Σ_{k<128} x(a,k)·W(c,k) + b(0,c) ,
  that is x·Wᵀ + b with the bias held as a one-row array: the affine stage of the transposed weight.
  The layer ends by combining, entry by entry, the mean of two neighbourhood averages with a node's own affine image,
      combine2 p q s = 1/2·(p + q) + s ,            combine1 p s = p + s .

  Here: what each tile of the kernel's bodies computes from the rows it loads is lin of those rows (the two operands
  of the matrix unit are first narrowed to a 16-bit format, which is the identity on the extended reals; the
  transposition commutes with it), respectively combine2 / combine1 of the loaded tiles (the bodies cast each tile to
  its own shape first, which changes nothing).
-/
import proofs.«146550_j58265526338344_1_alg».proof.Proof.Gen.KernelIdeal.Skeleton
import proofs.«146550_j58265526338344_1_alg».proof.Proof.LibEluStage

noncomputable section

namespace Cert.GraphLayer

open Idealize.ShloMosaic Idealize.ShloMosaic.ValueIdx Cert.LibEluStage

/-- The weight's shape, the bias row's shape, and a node table's shape. -/
abbrev Sq : Shape := ⟨2, ![128, 128]⟩
abbrev Row : Shape := ⟨2, ![1, 128]⟩
abbrev Tab (M : Nat) : Shape := ⟨2, ![M, 128]⟩

/-- x·Wᵀ + b: at (a, c) the sum over k of x(a,k)·W(c,k), plus b(0,c). -/
def lin (M : Nat) (ht : Sq.Transposes [1, 0] Sq) (x : FVec Ideal (Tab M) .f32) (w : FVec Ideal Sq .f32)
    (b : FVec Ideal Row .f32) : FVec Ideal (Tab M) .f32 :=
  affine M 128 128 x (transpose Sq [1, 0] w ht) b

/-- Half the sum of two neighbourhood averages, plus the node's own image (the half written as the word 0x3F000000). -/
def combine2 (M : Nat) (p q s : FVec Ideal (Tab M) .f32) : FVec Ideal (Tab M) .f32 :=
  addf (mulf (broadcast (Tab M) (Scalar.ofBits (F := Ideal) .f32 0x3F000000#32)) (addf p q)) s

/-- One neighbourhood average plus the node's own image. -/
def combine1 (M : Nat) (p s : FVec Ideal (Tab M) .f32) : FVec Ideal (Tab M) .f32 := addf p s

/-- A row of lin depends on x only through the same row of x. -/
theorem lin_rows (M M' : Nat) (ht : Sq.Transposes [1, 0] Sq) (X : FVec Ideal (Tab M) .f32) (x : FVec Ideal (Tab M') .f32)
    (w : FVec Ideal Sq .f32) (b : FVec Ideal Row .f32) (a : Fin M) (a' : Fin M')
    (h : ∀ k : Fin 128, x (ix2 a' k) = X (ix2 a k)) (c : Fin 128) :
    lin M' ht x w b (ix2 a' c) = lin M ht X w b (ix2 a c) :=
  affine_rows M 128 128 M' X x _ b a a' h c

/-- A tile's entry (a', c) is the table's entry (a, c), when the tile's row a' is the table's row a and the tile's weight
    and bias row are the whole weight and the whole bias row. -/
theorem lin_tile (M : Nat) (ht : Sq.Transposes [1, 0] Sq) (X : FVec Ideal (Tab M) .f32) (x : FVec Ideal (Tab 5000) .f32)
    (W w : FVec Ideal Sq .f32) (B b : FVec Ideal Row .f32) (j : (Tab 5000).Idx) (i : (Tab M).Idx)
    (hx : ∀ k : Fin 128, x (ix2 (j 0) k) = X (ix2 (i 0) k)) (hw : w = W) (hb : b = B) (hc : (i 1).val = (j 1).val) :
    lin 5000 ht x w b j = lin M ht X W B i := by
  subst hw hb
  obtain ⟨a', c', rfl⟩ : ∃ (a' : Fin 5000) (c' : Fin 128), j = ix2 a' c' := ⟨j 0, j 1, eq_ix2 j⟩
  obtain ⟨a, c, rfl⟩ : ∃ (a : Fin M) (c : Fin 128), i = ix2 a c := ⟨i 0, i 1, eq_ix2 i⟩
  have hcc : c = c' := Fin.ext hc
  subst hcc
  exact lin_rows M 5000 ht X x w b a a' hx c

/-- An entry of a tile's combine is the table's, when the tile's entries are the table's. -/
theorem combine1_tile (M : Nat) (P S : FVec Ideal (Tab M) .f32) (p s : FVec Ideal (Tab 5000) .f32)
    (j : (Tab 5000).Idx) (i : (Tab M).Idx) (hp : p j = P i) (hs : s j = S i) :
    combine1 5000 p s j = combine1 M P S i := by
  show p j + s j = P i + S i
  rw [hp, hs]

theorem combine2_tile (M : Nat) (P Q S : FVec Ideal (Tab M) .f32) (p q s : FVec Ideal (Tab 5000) .f32)
    (j : (Tab 5000).Idx) (i : (Tab M).Idx) (hp : p j = P i) (hq : q j = Q i) (hs : s j = S i) :
    combine2 5000 p q s j = combine2 M P Q S i := by
  show Scalar.ofBits (F := Ideal) .f32 0x3F000000#32 * (p j + q j) + s j
    = Scalar.ofBits (F := Ideal) .f32 0x3F000000#32 * (P i + Q i) + S i
  rw [hp, hq, hs]

section Payloads

open Cert.KernelIdeal Cert.KernelIdeal.Gen

/-- The matrix unit on 16-bit copies of a tile and of the transposed weight, plus the spread bias row, is lin of the tile. -/
theorem tile_lin (x : Vec Ideal S5000x128 .f32) (w : Vec Ideal S128x128 .f32) (b : Vec Ideal S1x128 .f32) :
    addf (matmul (F := Ideal) dot_S5000x128_S128x128_S5000x128_1_0_0_1_n_n none (truncf .bf16 x bitsLt_bf16_f32)
        (transpose S128x128 [1, 0] (truncf .bf16 w bitsLt_bf16_f32) transposes_S128x128_p1_0_S128x128)
        (constant S5000x128 .f32 0x00000000#32))
      (broadcastTo S5000x128 (shapeCast S1x128 b shapeCasts_S1x128_S1x128) broadcasts_S1x128_S5000x128)
      = lin 5000 transposes_S128x128_p1_0_S128x128 x w b :=
  affine_of_matmul 5000 128 128 x (transpose S128x128 [1, 0] w transposes_S128x128_p1_0_S128x128) b
    bitsLt_bf16_f32 bitsLt_bf16_f32 shapeCasts_S1x128_S1x128 broadcasts_S1x128_S5000x128

theorem gene_pay_int (x : Vec Ideal S5000x128 .f32) (w : Vec Ideal S128x128 .f32) (b : Vec Ideal S1x128 .f32) :
    k0_pay2 (F := Ideal) x w b = lin 5000 transposes_S128x128_p1_0_S128x128 x w b := tile_lin x w b
theorem gene_pay_trt (x : Vec Ideal S5000x128 .f32) (w : Vec Ideal S128x128 .f32) (b : Vec Ideal S1x128 .f32) :
    k0_pay3 (F := Ideal) x w b = lin 5000 transposes_S128x128_p1_0_S128x128 x w b := tile_lin x w b
theorem gene_pay_self (x : Vec Ideal S5000x128 .f32) (w : Vec Ideal S128x128 .f32) (b : Vec Ideal S1x128 .f32) :
    k0_pay4 (F := Ideal) x w b = lin 5000 transposes_S128x128_p1_0_S128x128 x w b := tile_lin x w b
theorem drug_pay_tgt (x : Vec Ideal S5000x128 .f32) (w : Vec Ideal S128x128 .f32) (b : Vec Ideal S1x128 .f32) :
    k1_pay2 (F := Ideal) x w b = lin 5000 transposes_S128x128_p1_0_S128x128 x w b := tile_lin x w b
theorem drug_pay_self (x : Vec Ideal S5000x128 .f32) (w : Vec Ideal S128x128 .f32) (b : Vec Ideal S1x128 .f32) :
    k1_pay3 (F := Ideal) x w b = lin 5000 transposes_S128x128_p1_0_S128x128 x w b := tile_lin x w b

/-- The gene combine's tile: each loaded tile cast to its own shape, then 1/2·(p + q) + s. -/
theorem gene_pay_combine (p q s : Vec Ideal S5000x128 .f32) : k2_pay1 (F := Ideal) p q s = combine2 5000 p q s := by
  unfold k2_pay1 combine2
  simp only [shapeCast_self]

/-- The drug combine's tile: p + s. -/
theorem drug_pay_combine (p s : Vec Ideal S5000x128 .f32) : k3_pay1 (F := Ideal) p s = combine1 5000 p s := by
  unfold k3_pay1 combine1
  simp only [shapeCast_self]

end Payloads

end Cert.GraphLayer

end
-- ==== Proof.Blocks.lean ====
/-
  From tiles to whole arrays.

  Each tiled call cuts its node tables into tiles of 5000 rows, one tile per grid point, every tile written back once,
  and the tiles fill the table. A row of an affine image depends only on the same row of the table, the weight and the
  bias row being whole at every point; the combines act entry by entry. So what a point writes back is the point's tile
  of ONE function of the arrays the call finds — lin, combine2 or combine1 of them — and since the tiles cover the
  table, the output array ends as that function.
  (The coordinate of an entry of tile t is t's index on the axis times the tile's extent plus the entry's coordinate
  inside the tile; row r of the table lies in tile r / 5000.)
-/
import proofs.«146550_j58265526338344_1_alg».proof.Proof.Gen.KernelIdeal.Frame
import proofs.«146550_j58265526338344_1_alg».proof.Proof.Stage
import Idealize.ShloMosaic.Lib.Pipeline.Value

set_option maxRecDepth 16384

noncomputable section

namespace Cert.GraphLayer.Kernel

open Cert.KernelIdeal Cert.KernelIdeal.Gen Cert.GraphLayer
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The gene table through the gene→gene weight: twenty tiles -/

/-- The table's tile moves with the output's tile down the row blocks; the weight and the bias row stay whole. -/
theorem geneint_idx : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) ≤ 19 ∧ win0_7.index t (1 : Fin 2) = 0 :=
  (by decide +kernel : ∀ t : Fin grid0.N, _)

theorem geneint_onto : ∀ q : Fin 20, ∃ t : Fin cfg0.N, win0_7.index t = ![q.val, 0] :=
  (by decide +kernel : ∀ q : Fin 20, ∃ t : Fin grid0.N, win0_7.index t = ![q.val, 0])

/-- What point t writes back is tile t of the affine image of the table the call finds. -/
theorem geneint_flushed (c : Dev nD) (t : Fin cfg0.N) :
    (dat0 (F := Ideal) V c).flushed 7 t
      = ((cfg0.win 7).blk t).view.read (Elt Ideal)
          (lin 100000 transposes_S128x128_p1_0_S128x128 (V c main_arg0) (V c main_arg2) (V c main_v0)) := by
  show (cfg0.win 7).cut (grid0.coords t) ((dat0 V c).after 7 t) = _
  rw [after0_7]
  unfold out0_7
  rw [View.canon_unit_zero origin]
  simp only [View.ld_unit_zero (S := S5000x128) origin, View.ld_unit_zero (S := S128x128) origin,
    View.ld_unit_zero (S := S1x128) origin]
  rw [gene_pay_int]
  obtain ⟨e0, e1, e2, e3, e4, e5, e6, e7⟩ := geneint_idx t
  funext j
  show lin 5000 transposes_S128x128_p1_0_S128x128 (iblk0 V c 0 t) (iblk0 V c 1 t) (iblk0 V c 2 t) j
    = lin 100000 transposes_S128x128_p1_0_S128x128 (V c main_arg0) (V c main_arg2) (V c main_v0) (((cfg0.win 7).blk t).view.emb j)
  refine lin_tile 100000 _ (V c main_arg0) (iblk0 V c 0 t) (V c main_arg2) (iblk0 V c 1 t) (V c main_v0) (iblk0 V c 2 t) j _ ?_ ?_ ?_ ?_
  · intro k
    show V c main_arg0 (((cfg0.win 0).blk t).view.emb (ix2 (j 0) k)) = V c main_arg0 (ix2 ((((cfg0.win 7).blk t).view.emb j) 0) k)
    refine congrArg _ ?_
    funext a; apply Fin.ext
    match a with
    | ⟨0, _⟩ => show win0_0.index t (0 : Fin 2) * 5000 + 1 * (j 0).val = win0_7.index t (0 : Fin 2) * 5000 + 1 * (j 0).val; omega
    | ⟨1, _⟩ => show win0_0.index t (1 : Fin 2) * 128 + 1 * k.val = k.val; omega
  · funext y
    show V c main_arg2 (((cfg0.win 1).blk t).view.emb y) = V c main_arg2 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_7.index t (1 : Fin 2) * 128 + 1 * (j 1).val = (j 1).val; omega

theorem geneint_mem (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v3_0).slice (win0_7.rect t)).set ↔ _
  rw [View.set_slice_whole, Rect.mem_set_unit]
  exact Iff.rfl

/-- Row r lies in tile r / 5000. -/
theorem geneint_cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := geneint_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [geneint_mem]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The output table after the call: the affine image of the whole table. -/
theorem geneint_array (c : Dev nD) :
    (dat0 (F := Ideal) V c).arrAt 7 cfg0.N
      = lin 100000 transposes_S128x128_p1_0_S128x128 (V c main_arg0) (V c main_arg2) (V c main_v0) :=
  (dat0 V c).arrAt_eq_of_cover 7 _ (fun t _ => geneint_flushed V c t) geneint_cover

/-! ## The gene table through the gene→drug weight -/

/-- The table's tile moves with the output's tile down the row blocks; the weight and the bias row stay whole. -/
theorem genetrt_idx : ∀ t : Fin cfg0.N, win0_0.index t (0 : Fin 2) = win0_8.index t (0 : Fin 2)
    ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) ≤ 19 ∧ win0_8.index t (1 : Fin 2) = 0 :=
  (by decide +kernel : ∀ t : Fin grid0.N, _)

theorem genetrt_onto : ∀ q : Fin 20, ∃ t : Fin cfg0.N, win0_8.index t = ![q.val, 0] :=
  (by decide +kernel : ∀ q : Fin 20, ∃ t : Fin grid0.N, win0_8.index t = ![q.val, 0])

/-- What point t writes back is tile t of the affine image of the table the call finds. -/
theorem genetrt_flushed (c : Dev nD) (t : Fin cfg0.N) :
    (dat0 (F := Ideal) V c).flushed 8 t
      = ((cfg0.win 8).blk t).view.read (Elt Ideal)
          (lin 100000 transposes_S128x128_p1_0_S128x128 (V c main_arg0) (V c main_arg6) (V c main_v1)) := by
  show (cfg0.win 8).cut (grid0.coords t) ((dat0 V c).after 8 t) = _
  rw [after0_8]
  unfold out0_8
  rw [View.canon_unit_zero origin]
  simp only [View.ld_unit_zero (S := S5000x128) origin, View.ld_unit_zero (S := S128x128) origin,
    View.ld_unit_zero (S := S1x128) origin]
  rw [gene_pay_trt]
  obtain ⟨e0, e1, e2, e3, e4, e5, e6, e7⟩ := genetrt_idx t
  funext j
  show lin 5000 transposes_S128x128_p1_0_S128x128 (iblk0 V c 0 t) (iblk0 V c 3 t) (iblk0 V c 4 t) j
    = lin 100000 transposes_S128x128_p1_0_S128x128 (V c main_arg0) (V c main_arg6) (V c main_v1) (((cfg0.win 8).blk t).view.emb j)
  refine lin_tile 100000 _ (V c main_arg0) (iblk0 V c 0 t) (V c main_arg6) (iblk0 V c 3 t) (V c main_v1) (iblk0 V c 4 t) j _ ?_ ?_ ?_ ?_
  · intro k
    show V c main_arg0 (((cfg0.win 0).blk t).view.emb (ix2 (j 0) k)) = V c main_arg0 (ix2 ((((cfg0.win 8).blk t).view.emb j) 0) k)
    refine congrArg _ ?_
    funext a; apply Fin.ext
    match a with
    | ⟨0, _⟩ => show win0_0.index t (0 : Fin 2) * 5000 + 1 * (j 0).val = win0_8.index t (0 : Fin 2) * 5000 + 1 * (j 0).val; omega
    | ⟨1, _⟩ => show win0_0.index t (1 : Fin 2) * 128 + 1 * k.val = k.val; omega
  · funext y
    show V c main_arg6 (((cfg0.win 3).blk t).view.emb y) = V c main_arg6 y
    refine congrArg _ ?_
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v1 (((cfg0.win 4).blk t).view.emb y) = V c main_v1 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_8.index t (1 : Fin 2) * 128 + 1 * (j 1).val = (j 1).val; omega

theorem genetrt_mem (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v3_1).slice (win0_8.rect t)).set ↔ _
  rw [View.set_slice_whole, Rect.mem_set_unit]
  exact Iff.rfl

/-- Row r lies in tile r / 5000. -/
theorem genetrt_cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := genetrt_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [genetrt_mem]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- The output table after the call: the affine image of the whole table. -/
theorem genetrt_array (c : Dev nD) :
    (dat0 (F := Ideal) V c).arrAt 8 cfg0.N
      = lin 100000 transposes_S128x128_p1_0_S128x128 (V c main_arg0) (V c main_arg6) (V c main_v1) :=
  (dat0 V c).arrAt_eq_of_cover 8 _ (fun t _ => genetrt_flushed V c t) genetrt_cover

/-! ## The gene table through its own weight -/

/-- The table's tile moves with the output's tile down the row blocks; the weight and the bias row stay whole. -/
theorem geneself_idx : ∀ t : Fin cfg0.N, win0_0.index t (0 : Fin 2) = win0_9.index t (0 : Fin 2)
    ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) ≤ 19 ∧ win0_9.index t (1 : Fin 2) = 0 :=
  (by decide +kernel : ∀ t : Fin grid0.N, _)

theorem geneself_onto : ∀ q : Fin 20, ∃ t : Fin cfg0.N, win0_9.index t = ![q.val, 0] :=
  (by decide +kernel : ∀ q : Fin 20, ∃ t : Fin grid0.N, win0_9.index t = ![q.val, 0])

/-- What point t writes back is tile t of the affine image of the table the call finds. -/
theorem geneself_flushed (c : Dev nD) (t : Fin cfg0.N) :
    (dat0 (F := Ideal) V c).flushed 9 t
      = ((cfg0.win 9).blk t).view.read (Elt Ideal)
          (lin 100000 transposes_S128x128_p1_0_S128x128 (V c main_arg0) (V c main_arg8) (V c main_v2)) := by
  show (cfg0.win 9).cut (grid0.coords t) ((dat0 V c).after 9 t) = _
  rw [after0_9]
  unfold out0_9
  rw [View.canon_unit_zero origin]
  simp only [View.ld_unit_zero (S := S5000x128) origin, View.ld_unit_zero (S := S128x128) origin,
    View.ld_unit_zero (S := S1x128) origin]
  rw [gene_pay_self]
  obtain ⟨e0, e1, e2, e3, e4, e5, e6, e7⟩ := geneself_idx t
  funext j
  show lin 5000 transposes_S128x128_p1_0_S128x128 (iblk0 V c 0 t) (iblk0 V c 5 t) (iblk0 V c 6 t) j
    = lin 100000 transposes_S128x128_p1_0_S128x128 (V c main_arg0) (V c main_arg8) (V c main_v2) (((cfg0.win 9).blk t).view.emb j)
  refine lin_tile 100000 _ (V c main_arg0) (iblk0 V c 0 t) (V c main_arg8) (iblk0 V c 5 t) (V c main_v2) (iblk0 V c 6 t) j _ ?_ ?_ ?_ ?_
  · intro k
    show V c main_arg0 (((cfg0.win 0).blk t).view.emb (ix2 (j 0) k)) = V c main_arg0 (ix2 ((((cfg0.win 9).blk t).view.emb j) 0) k)
    refine congrArg _ ?_
    funext a; apply Fin.ext
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 128 + 1 * k.val = k.val; omega
  · funext y
    show V c main_arg8 (((cfg0.win 5).blk t).view.emb y) = V c main_arg8 y
    refine congrArg _ ?_
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V c main_v2 (((cfg0.win 6).blk t).view.emb y) = V c main_v2 y
    refine congrArg _ ?_
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  · show win0_9.index t (1 : Fin 2) * 128 + 1 * (j 1).val = (j 1).val; omega

theorem geneself_mem (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v3_2).slice (win0_9.rect t)).set ↔ _
  rw [View.set_slice_whole, Rect.mem_set_unit]
  exact Iff.rfl

/-- Row r lies in tile r / 5000. -/
theorem geneself_cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := geneself_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [geneself_mem]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output table after the call: the affine image of the whole table. -/
theorem geneself_array (c : Dev nD) :
    (dat0 (F := Ideal) V c).arrAt 9 cfg0.N
      = lin 100000 transposes_S128x128_p1_0_S128x128 (V c main_arg0) (V c main_arg8) (V c main_v2) :=
  (dat0 V c).arrAt_eq_of_cover 9 _ (fun t _ => geneself_flushed V c t) geneself_cover

/-! ## The drug table through the drug→gene weight: four tiles -/

/-- The table's tile moves with the output's tile down the row blocks; the weight and the bias row stay whole. -/
theorem drugtgt_idx : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_5.index t (0 : Fin 2) ≤ 3 ∧ win1_5.index t (1 : Fin 2) = 0 :=
  (by decide +kernel : ∀ t : Fin grid1.N, _)

theorem drugtgt_onto : ∀ q : Fin 4, ∃ t : Fin cfg1.N, win1_5.index t = ![q.val, 0] :=
  (by decide +kernel : ∀ q : Fin 4, ∃ t : Fin grid1.N, win1_5.index t = ![q.val, 0])

/-- What point t writes back is tile t of the affine image of the table the call finds. -/
theorem drugtgt_flushed (c : Dev nD) (t : Fin cfg1.N) :
    (dat1 (F := Ideal) V c).flushed 5 t
      = ((cfg1.win 5).blk t).view.read (Elt Ideal)
          (lin 20000 transposes_S128x128_p1_0_S128x128 (V c main_arg1) (V c main_arg4) (V c main_v4)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  rw [drug_pay_tgt]
  obtain ⟨e0, e1, e2, e3, e4, e5, e6, e7⟩ := drugtgt_idx t
  funext j
  show lin 5000 transposes_S128x128_p1_0_S128x128 (iblk1 V c 0 t) (iblk1 V c 1 t) (iblk1 V c 2 t) j
    = lin 20000 transposes_S128x128_p1_0_S128x128 (V c main_arg1) (V c main_arg4) (V c main_v4) (((cfg1.win 5).blk t).view.emb j)
  refine lin_tile 20000 _ (V c main_arg1) (iblk1 V c 0 t) (V c main_arg4) (iblk1 V c 1 t) (V c main_v4) (iblk1 V c 2 t) j _ ?_ ?_ ?_ ?_
  · intro k
    show V c main_arg1 (((cfg1.win 0).blk t).view.emb (ix2 (j 0) k)) = V c main_arg1 (ix2 ((((cfg1.win 5).blk t).view.emb j) 0) k)
    refine congrArg _ ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · funext y
    show V c main_arg4 (((cfg1.win 1).blk t).view.emb y) = V c main_arg4 y
    refine congrArg _ ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v4 (((cfg1.win 2).blk t).view.emb y) = V c main_v4 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show win1_5.index t (1 : Fin 2) * 128 + 1 * (j 1).val = (j 1).val; omega

theorem drugtgt_mem (t : Fin cfg1.N) (i : S20000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v6_0).slice (win1_5.rect t)).set ↔ _
  rw [View.set_slice_whole, Rect.mem_set_unit]
  exact Iff.rfl

/-- Row r lies in tile r / 5000. -/
theorem drugtgt_cover (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ := drugtgt_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [drugtgt_mem]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output table after the call: the affine image of the whole table. -/
theorem drugtgt_array (c : Dev nD) :
    (dat1 (F := Ideal) V c).arrAt 5 cfg1.N
      = lin 20000 transposes_S128x128_p1_0_S128x128 (V c main_arg1) (V c main_arg4) (V c main_v4) :=
  (dat1 V c).arrAt_eq_of_cover 5 _ (fun t _ => drugtgt_flushed V c t) drugtgt_cover

/-! ## The drug table through its own weight -/

/-- The table's tile moves with the output's tile down the row blocks; the weight and the bias row stay whole. -/
theorem drugself_idx : ∀ t : Fin cfg1.N, win1_0.index t (0 : Fin 2) = win1_6.index t (0 : Fin 2)
    ∧ win1_0.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) ≤ 3 ∧ win1_6.index t (1 : Fin 2) = 0 :=
  (by decide +kernel : ∀ t : Fin grid1.N, _)

theorem drugself_onto : ∀ q : Fin 4, ∃ t : Fin cfg1.N, win1_6.index t = ![q.val, 0] :=
  (by decide +kernel : ∀ q : Fin 4, ∃ t : Fin grid1.N, win1_6.index t = ![q.val, 0])

/-- What point t writes back is tile t of the affine image of the table the call finds. -/
theorem drugself_flushed (c : Dev nD) (t : Fin cfg1.N) :
    (dat1 (F := Ideal) V c).flushed 6 t
      = ((cfg1.win 6).blk t).view.read (Elt Ideal)
          (lin 20000 transposes_S128x128_p1_0_S128x128 (V c main_arg1) (V c main_arg10) (V c main_v5)) := by
  show (cfg1.win 6).cut (grid1.coords t) ((dat1 V c).after 6 t) = _
  rw [after1_6]
  unfold out1_6
  rw [View.canon_unit_zero origin]
  simp only [View.ld_unit_zero (S := S5000x128) origin, View.ld_unit_zero (S := S128x128) origin,
    View.ld_unit_zero (S := S1x128) origin]
  rw [drug_pay_self]
  obtain ⟨e0, e1, e2, e3, e4, e5, e6, e7⟩ := drugself_idx t
  funext j
  show lin 5000 transposes_S128x128_p1_0_S128x128 (iblk1 V c 0 t) (iblk1 V c 3 t) (iblk1 V c 4 t) j
    = lin 20000 transposes_S128x128_p1_0_S128x128 (V c main_arg1) (V c main_arg10) (V c main_v5) (((cfg1.win 6).blk t).view.emb j)
  refine lin_tile 20000 _ (V c main_arg1) (iblk1 V c 0 t) (V c main_arg10) (iblk1 V c 3 t) (V c main_v5) (iblk1 V c 4 t) j _ ?_ ?_ ?_ ?_
  · intro k
    show V c main_arg1 (((cfg1.win 0).blk t).view.emb (ix2 (j 0) k)) = V c main_arg1 (ix2 ((((cfg1.win 6).blk t).view.emb j) 0) k)
    refine congrArg _ ?_
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · funext y
    show V c main_arg10 (((cfg1.win 3).blk t).view.emb y) = V c main_arg10 y
    refine congrArg _ ?_
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v5 (((cfg1.win 4).blk t).view.emb y) = V c main_v5 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show win1_6.index t (1 : Fin 2) * 128 + 1 * (j 1).val = (j 1).val; omega

theorem drugself_mem (t : Fin cfg1.N) (i : S20000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v6_1).slice (win1_6.rect t)).set ↔ _
  rw [View.set_slice_whole, Rect.mem_set_unit]
  exact Iff.rfl

/-- Row r lies in tile r / 5000. -/
theorem drugself_cover (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  obtain ⟨t, ht⟩ := drugself_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [drugself_mem]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output table after the call: the affine image of the whole table. -/
theorem drugself_array (c : Dev nD) :
    (dat1 (F := Ideal) V c).arrAt 6 cfg1.N
      = lin 20000 transposes_S128x128_p1_0_S128x128 (V c main_arg1) (V c main_arg10) (V c main_v5) :=
  (dat1 V c).arrAt_eq_of_cover 6 _ (fun t _ => drugself_flushed V c t) drugself_cover

/-! ## The gene combine: twenty tiles of the 100000-row table -/

theorem genec_idx : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = win2_3.index t (1 : Fin 2)
    ∧ win2_2.index t (0 : Fin 2) = win2_3.index t (0 : Fin 2)
    ∧ win2_2.index t (1 : Fin 2) = win2_3.index t (1 : Fin 2)
    ∧ win2_3.index t (0 : Fin 2) ≤ 19 ∧ win2_3.index t (1 : Fin 2) = 0 :=
  (by decide +kernel : ∀ t : Fin grid2.N, _)

theorem genec_onto : ∀ q : Fin 20, ∃ t : Fin cfg2.N, win2_3.index t = ![q.val, 0] :=
  (by decide +kernel : ∀ q : Fin 20, ∃ t : Fin grid2.N, win2_3.index t = ![q.val, 0])

/-- What point t writes back is tile t of 1/2·(p + q) + s of the arrays the call finds. -/
theorem genec_flushed (c : Dev nD) (t : Fin cfg2.N) :
    (dat2 (F := Ideal) V c).flushed 3 t
      = ((cfg2.win 3).blk t).view.read (Elt Ideal) (combine2 100000 (V c main_v25) (V c main_v44) (V c main_v3_2)) := by
  show (cfg2.win 3).cut (grid2.coords t) ((dat2 V c).after 3 t) = _
  rw [after2_3]
  unfold out2_3
  rw [View.canon_unit_zero origin]
  simp only [View.ld_unit_zero (S := S5000x128) origin]
  rw [gene_pay_combine]
  obtain ⟨e0, e1, e2, e3, e4, e5, e6, e7⟩ := genec_idx t
  funext j
  show combine2 5000 (iblk2 V c 0 t) (iblk2 V c 1 t) (iblk2 V c 2 t) j
    = combine2 100000 (V c main_v25) (V c main_v44) (V c main_v3_2) (((cfg2.win 3).blk t).view.emb j)
  refine combine2_tile 100000 (V c main_v25) (V c main_v44) (V c main_v3_2) (iblk2 V c 0 t) (iblk2 V c 1 t) (iblk2 V c 2 t) j _ ?_ ?_ ?_
  · show V c main_v25 (((cfg2.win 0).blk t).view.emb j) = V c main_v25 (((cfg2.win 3).blk t).view.emb j)
    exact congrArg _ (by
      funext a; apply Fin.ext
      match a with
      | ⟨0, _⟩ => show win2_0.index t (0 : Fin 2) * 5000 + 1 * (j 0).val = win2_3.index t (0 : Fin 2) * 5000 + 1 * (j 0).val; omega
      | ⟨1, _⟩ => show win2_0.index t (1 : Fin 2) * 128 + 1 * (j 1).val = win2_3.index t (1 : Fin 2) * 128 + 1 * (j 1).val; omega)
  · show V c main_v44 (((cfg2.win 1).blk t).view.emb j) = V c main_v44 (((cfg2.win 3).blk t).view.emb j)
    exact congrArg _ (by
      funext a; apply Fin.ext
      match a with
      | ⟨0, _⟩ => show win2_1.index t (0 : Fin 2) * 5000 + 1 * (j 0).val = win2_3.index t (0 : Fin 2) * 5000 + 1 * (j 0).val; omega
      | ⟨1, _⟩ => show win2_1.index t (1 : Fin 2) * 128 + 1 * (j 1).val = win2_3.index t (1 : Fin 2) * 128 + 1 * (j 1).val; omega)
  · show V c main_v3_2 (((cfg2.win 2).blk t).view.emb j) = V c main_v3_2 (((cfg2.win 3).blk t).view.emb j)
    exact congrArg _ (by
      funext a; apply Fin.ext
      match a with
      | ⟨0, _⟩ => show win2_2.index t (0 : Fin 2) * 5000 + 1 * (j 0).val = win2_3.index t (0 : Fin 2) * 5000 + 1 * (j 0).val; omega
      | ⟨1, _⟩ => show win2_2.index t (1 : Fin 2) * 128 + 1 * (j 1).val = win2_3.index t (1 : Fin 2) * 128 + 1 * (j 1).val; omega)

theorem genec_mem (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v64).slice (win2_3.rect t)).set ↔ _
  rw [View.set_slice_whole, Rect.mem_set_unit]
  exact Iff.rfl

/-- Row r lies in tile r / 5000. -/
theorem genec_cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := genec_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [genec_mem]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The gene output table after the call. -/
theorem genec_array (c : Dev nD) :
    (dat2 (F := Ideal) V c).arrAt 3 cfg2.N = combine2 100000 (V c main_v25) (V c main_v44) (V c main_v3_2) :=
  (dat2 V c).arrAt_eq_of_cover 3 _ (fun t _ => genec_flushed V c t) genec_cover

/-! ## The drug combine: four tiles of the 20000-row table -/

/-- The two inputs' tiles move with the output's tile, which runs over the four row blocks in column block 0. -/
theorem drugc_idx : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 3 ∧ win3_2.index t (1 : Fin 2) = 0 :=
  (by decide +kernel : ∀ t : Fin grid3.N, _)

theorem drugc_onto : ∀ q : Fin 4, ∃ t : Fin cfg3.N, win3_2.index t = ![q.val, 0] :=
  (by decide +kernel : ∀ q : Fin 4, ∃ t : Fin grid3.N, win3_2.index t = ![q.val, 0])

/-- What point t writes back is tile t of p + s of the arrays the call finds. -/
theorem drugc_flushed (c : Dev nD) (t : Fin cfg3.N) :
    (dat3 (F := Ideal) V c).flushed 2 t
      = ((cfg3.win 2).blk t).view.read (Elt Ideal) (combine1 20000 (V c main_v63) (V c main_v6_1)) := by
  show (cfg3.win 2).cut (grid3.coords t) ((dat3 V c).after 2 t) = _
  rw [after3_2]
  unfold out3_2
  rw [View.canon_unit_zero origin]
  simp only [View.ld_unit_zero (S := S5000x128) origin]
  rw [drug_pay_combine]
  obtain ⟨e0, e1, e2, e3, e4, e5⟩ := drugc_idx t
  funext j
  show combine1 5000 (iblk3 V c 0 t) (iblk3 V c 1 t) j
    = combine1 20000 (V c main_v63) (V c main_v6_1) (((cfg3.win 2).blk t).view.emb j)
  refine combine1_tile 20000 (V c main_v63) (V c main_v6_1) (iblk3 V c 0 t) (iblk3 V c 1 t) j _ ?_ ?_
  · show V c main_v63 (((cfg3.win 0).blk t).view.emb j) = V c main_v63 (((cfg3.win 2).blk t).view.emb j)
    exact congrArg _ (by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 128 + 1 * (j 1).val = win3_2.index t (1 : Fin 2) * 128 + 1 * (j 1).val; omega)
  · show V c main_v6_1 (((cfg3.win 1).blk t).view.emb j) = V c main_v6_1 (((cfg3.win 2).blk t).view.emb j)
    exact congrArg _ (by
      funext a; apply Fin.ext
      match a with
      | ⟨0, _⟩ => show win3_1.index t (0 : Fin 2) * 5000 + 1 * (j 0).val = win3_2.index t (0 : Fin 2) * 5000 + 1 * (j 0).val; omega
      | ⟨1, _⟩ => show win3_1.index t (1 : Fin 2) * 128 + 1 * (j 1).val = win3_2.index t (1 : Fin 2) * 128 + 1 * (j 1).val; omega)

theorem drugc_mem (t : Fin cfg3.N) (i : S20000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v65).slice (win3_2.rect t)).set ↔ _
  rw [View.set_slice_whole, Rect.mem_set_unit]
  exact Iff.rfl

/-- Row r lies in tile r / 5000. -/
theorem drugc_cover (i : S20000x128.Idx) :
    ∃ t : Fin cfg3.N, (cfg3.win 2).flush t = true ∧ i ∈ ((cfg3.win 2).blk t).view.set := by
  have hi0 : (i 0).val < 20000 := (i 0).isLt
  have hi1 : (i 1).val < 128 := (i 1).isLt
  obtain ⟨t, ht⟩ := drugc_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [drugc_mem]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The drug output table after the call. -/
theorem drugc_array (c : Dev nD) :
    (dat3 (F := Ideal) V c).arrAt 2 cfg3.N = combine1 20000 (V c main_v63) (V c main_v6_1) :=
  (dat3 V c).arrAt_eq_of_cover 2 _ (fun t _ => drugc_flushed V c t) drugc_cover

end Cert.GraphLayer.Kernel

end
-- ==== Proof.Means.lean ====
/-
  The neighbourhood average along one kind of edge, as a function of the source table and the two index vectors.

  For an edge list (src, dst) and a table t of messages, one per source node, the average at destination node n is
      ( Σ_{e : dst e = n} t(src e, ·) ) / max( #{e : dst e = n}, 1 ) ,
  spelt the way it lowers: negative source numbers wrapped once, the rows gathered, summed into a zero table at the
  destinations, the counts summed likewise from a vector of ones, the maximum with 1 taken, spread over the 128 features,
  and divided. Nothing here opens those operations: the three averages (gene→gene, drug→gene, gene→drug) are NAMED, as
  functions of the table and the indices, so that the two programs can be compared with the averages as units.
  The reference's whole result is then: the two tables 1/2·(meanInt + meanTgt) + self image and meanTrt + self image,
  stacked.
-/
import proofs.«146550_j58265526338344_1_alg».proof.Proof.Gen.ReferenceIdeal.Run
import Idealize.ShloMosaic.PureOps.Ideal

set_option maxRecDepth 8192

noncomputable section

namespace Cert.GraphLayer

open Cert.ReferenceIdeal Cert.ReferenceIdeal.Gen Idealize.ShloMosaic Idealize.ShloMosaic.TcCoe Idealize.SL.Sem

/-- The host's spelling of an affine image of the gene table: the product with the transposed weight, plus the bias
    vector spread along axis 1 and then over the rows. -/
def hostLinGene (x : FVec Ideal S100000x128 .f32) (w : FVec Ideal S128x128 .f32) (bv : FVec Ideal S128 .f32) :
    FVec Ideal S100000x128 .f32 :=
  addf (Host.dotGeneral (F := Ideal) dot_S100000x128_S128x128_S100000x128_1_0_0_1_n_n none x
      (transpose S128x128 [1, 0] w transposes_S128x128_S128x128_1_0))
    (broadcastInDim S100000x128 ![0, 1] bcast_S1x128_S100000x128_0_1 (broadcastInDim S1x128 ![1] bcast_S128_S1x128_1 bv))

/-- The same of the drug table. -/
def hostLinDrug (x : FVec Ideal S20000x128 .f32) (w : FVec Ideal S128x128 .f32) (bv : FVec Ideal S128 .f32) :
    FVec Ideal S20000x128 .f32 :=
  addf (Host.dotGeneral (F := Ideal) dot_S20000x128_S128x128_S20000x128_1_0_0_1_n_n none x
      (transpose S128x128 [1, 0] w transposes_S128x128_S128x128_1_0))
    (broadcastInDim S20000x128 ![0, 1] bcast_S1x128_S20000x128_0_1 (broadcastInDim S1x128 ![1] bcast_S128_S1x128_1 bv))

/-- Average over the gene→gene edges of the gene messages t. -/
def meanInt (t : FVec Ideal S100000x128 .f32) (src dst : (⟨S1000000, .i32⟩ : BufTy).Contents (Elt Ideal)) :
    FVec Ideal S100000x128 .f32 :=
  (Host.divf (F := Ideal) (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 dst) (Host.gather gather_S100000x128_S1000000x1_S1000000x128_1_0_n_n_0_1_1128 t (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))) (broadcastInDim S100000x128 ![0, 1] bcast_S100000x1_S100000x128_0_1 (broadcastInDim S100000x1 ![0] bcast_S100000_S100000x1_0 (maximumf (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32))))))

/-- Average over the drug→gene edges of the drug messages t. -/
def meanTgt (t : FVec Ideal S20000x128 .f32) (src dst : (⟨S400000, .i32⟩ : BufTy).Contents (Elt Ideal)) :
    FVec Ideal S100000x128 .f32 :=
  (Host.divf (F := Ideal) (Host.scatterAdd (F := Ideal) scatter_S100000x128_S400000x1_S400000x128_1_0_0_1 (broadcastInDim S100000x128 ![] bcast_S_S100000x128 (constant (F := Ideal) S_ .f32 0x00000000#32)) (broadcastInDim S400000x1 ![0] bcast_S400000_S400000x1_0 dst) (Host.gather gather_S20000x128_S400000x1_S400000x128_1_0_n_n_0_1_1128 t (broadcastInDim S400000x1 ![0] bcast_S400000_S400000x1_0 (select (cmpi .slt src (broadcastInDim S400000 ![] bcast_S_S400000 (constantI S_ 32 0#32))) (addi src (broadcastInDim S400000 ![] bcast_S_S400000 (constantI S_ 32 20000#32))) src)))) (broadcastInDim S100000x128 ![0, 1] bcast_S100000x1_S100000x128_0_1 (broadcastInDim S100000x1 ![0] bcast_S100000_S100000x1_0 (maximumf (Host.scatterAdd (F := Ideal) scatter_S100000_S400000x1_S400000_n_0_0_1 (broadcastInDim S100000 ![] bcast_S_S100000 (constant (F := Ideal) S_ .f32 0x00000000#32)) (broadcastInDim S400000x1 ![0] bcast_S400000_S400000x1_0 dst) (broadcastInDim S400000 ![] bcast_S_S400000 (constant (F := Ideal) S_ .f32 0x3F800000#32))) (broadcastInDim S100000 ![] bcast_S_S100000 (constant (F := Ideal) S_ .f32 0x3F800000#32))))))

/-- Average over the gene→drug edges of the gene messages t. -/
def meanTrt (t : FVec Ideal S100000x128 .f32) (src dst : (⟨S400000, .i32⟩ : BufTy).Contents (Elt Ideal)) :
    FVec Ideal S20000x128 .f32 :=
  (Host.divf (F := Ideal) (Host.scatterAdd (F := Ideal) scatter_S20000x128_S400000x1_S400000x128_1_0_0_1 (broadcastInDim S20000x128 ![] bcast_S_S20000x128 (constant (F := Ideal) S_ .f32 0x00000000#32)) (broadcastInDim S400000x1 ![0] bcast_S400000_S400000x1_0 dst) (Host.gather gather_S100000x128_S400000x1_S400000x128_1_0_n_n_0_1_1128 t (broadcastInDim S400000x1 ![0] bcast_S400000_S400000x1_0 (select (cmpi .slt src (broadcastInDim S400000 ![] bcast_S_S400000 (constantI S_ 32 0#32))) (addi src (broadcastInDim S400000 ![] bcast_S_S400000 (constantI S_ 32 100000#32))) src)))) (broadcastInDim S20000x128 ![0, 1] bcast_S20000x1_S20000x128_0_1 (broadcastInDim S20000x1 ![0] bcast_S20000_S20000x1_0 (maximumf (Host.scatterAdd (F := Ideal) scatter_S20000_S400000x1_S400000_n_0_0_1 (broadcastInDim S20000 ![] bcast_S_S20000 (constant (F := Ideal) S_ .f32 0x00000000#32)) (broadcastInDim S400000x1 ![0] bcast_S400000_S400000x1_0 dst) (broadcastInDim S400000 ![] bcast_S_S400000 (constant (F := Ideal) S_ .f32 0x3F800000#32))) (broadcastInDim S20000 ![] bcast_S_S20000 (constant (F := Ideal) S_ .f32 0x3F800000#32))))))

/-- The reference's result with the five affine images and the three averages named. -/
theorem reference_result (m : (ℓ : Loc nD τ sig) → Buf (Elt Ideal) ℓ) (c : Dev nD) :
    Cert.ReferenceIdeal.Value.res_main_v87 (F := Ideal) m c =
      concatenate S120000x128 0 [⟨S100000x128, (addf (mulf (broadcastInDim S100000x128 ![] bcast_S_S100000x128 (constant (F := Ideal) S_ .f32 0x3F000000#32)) (addf (meanInt (hostLinGene (m ((c.tc : Thread nD τ).loc main_arg0)) (m ((c.tc : Thread nD τ).loc main_arg2)) (m ((c.tc : Thread nD τ).loc main_arg3))) (m ((c.tc : Thread nD τ).loc main_arg12)) (m ((c.tc : Thread nD τ).loc main_arg13))) (meanTgt (hostLinDrug (m ((c.tc : Thread nD τ).loc main_arg1)) (m ((c.tc : Thread nD τ).loc main_arg4)) (m ((c.tc : Thread nD τ).loc main_arg5))) (m ((c.tc : Thread nD τ).loc main_arg14)) (m ((c.tc : Thread nD τ).loc main_arg15))))) (hostLinGene (m ((c.tc : Thread nD τ).loc main_arg0)) (m ((c.tc : Thread nD τ).loc main_arg8)) (m ((c.tc : Thread nD τ).loc main_arg9))))⟩, ⟨S20000x128, (addf (meanTrt (hostLinGene (m ((c.tc : Thread nD τ).loc main_arg0)) (m ((c.tc : Thread nD τ).loc main_arg6)) (m ((c.tc : Thread nD τ).loc main_arg7))) (m ((c.tc : Thread nD τ).loc main_arg16)) (m ((c.tc : Thread nD τ).loc main_arg17))) (hostLinDrug (m ((c.tc : Thread nD τ).loc main_arg1)) (m ((c.tc : Thread nD τ).loc main_arg10)) (m ((c.tc : Thread nD τ).loc main_arg11))))⟩] concatenates_S100000x128_S20000x128_S120000x128_d0 := by
  unfold Cert.ReferenceIdeal.Value.res_main_v87 meanInt meanTgt meanTrt hostLinGene hostLinDrug
  rfl

end Cert.GraphLayer

end
-- ==== Proof.Layer.lean ====
/-
  The whole layer as ONE function of the eighteen argument arrays, and the reference's result as that function.

      layer = stack( combine2 (meanInt (lin h_gene W_int b_int)) (meanTgt (lin h_drug W_tgt b_tgt)) (lin h_gene W_slg b_slg) ,
                     combine1 (meanTrt (lin h_gene W_trt b_trt)) (lin h_drug W_sld b_sld) )

  with each bias vector held as a one-row array. The reference spells an affine image as the host's product with the
  transposed weight plus the bias vector spread first along axis 1 and then over the rows, which is lin with the bias
  vector cast to a row (the cast and the axis-1 spread of a vector are one array); and it spells the half of combine2 as
  a rank-0 constant spread over the table, which reads the same scalar everywhere.
-/
import proofs.«146550_j58265526338344_1_alg».proof.Proof.Means
import proofs.«146550_j58265526338344_1_alg».proof.Proof.Stage

set_option maxRecDepth 8192

noncomputable section

namespace Cert.GraphLayer

open Cert.ReferenceIdeal Cert.ReferenceIdeal.Gen Idealize.ShloMosaic Idealize.ShloMosaic.TcCoe Idealize.SL.Sem
open Idealize.ShloMosaic.ValueIdx Cert.LibEluStage

/-- The two output tables, genes above drugs. -/
def layer (ht : Sq.Transposes [1, 0] Sq) (hsc : S128.ShapeCasts S1x128)
    (hg : (⟨S100000x128, .f32⟩ : BufTy).Contents (Elt Ideal)) (hd : (⟨S20000x128, .f32⟩ : BufTy).Contents (Elt Ideal))
    (wi : (⟨S128x128, .f32⟩ : BufTy).Contents (Elt Ideal)) (bi : (⟨S128, .f32⟩ : BufTy).Contents (Elt Ideal))
    (wt : (⟨S128x128, .f32⟩ : BufTy).Contents (Elt Ideal)) (bt : (⟨S128, .f32⟩ : BufTy).Contents (Elt Ideal))
    (wr : (⟨S128x128, .f32⟩ : BufTy).Contents (Elt Ideal)) (br : (⟨S128, .f32⟩ : BufTy).Contents (Elt Ideal))
    (wsg : (⟨S128x128, .f32⟩ : BufTy).Contents (Elt Ideal)) (bsg : (⟨S128, .f32⟩ : BufTy).Contents (Elt Ideal))
    (wsd : (⟨S128x128, .f32⟩ : BufTy).Contents (Elt Ideal)) (bsd : (⟨S128, .f32⟩ : BufTy).Contents (Elt Ideal))
    (si di : (⟨S1000000, .i32⟩ : BufTy).Contents (Elt Ideal))
    (st dt sr dr : (⟨S400000, .i32⟩ : BufTy).Contents (Elt Ideal)) :
    (⟨S120000x128, .f32⟩ : BufTy).Contents (Elt Ideal) :=
  concatenate S120000x128 0
    [⟨S100000x128, combine2 100000
        (meanInt (lin 100000 ht hg wi (shapeCast S1x128 bi hsc)) si di)
        (meanTgt (lin 20000 ht hd wt (shapeCast S1x128 bt hsc)) st dt)
        (lin 100000 ht hg wsg (shapeCast S1x128 bsg hsc))⟩,
     ⟨S20000x128, combine1 20000
        (meanTrt (lin 100000 ht hg wr (shapeCast S1x128 br hsc)) sr dr)
        (lin 20000 ht hd wsd (shapeCast S1x128 bsd hsc))⟩]
    concatenates_S100000x128_S20000x128_S120000x128_d0

/-- The host's spelling of an affine image of the gene table is lin with the bias vector cast to a row. -/
theorem host_lin_gene (hsc : S128.ShapeCasts S1x128) (x : FVec Ideal S100000x128 .f32) (w : FVec Ideal S128x128 .f32)
    (bv : FVec Ideal S128 .f32) :
    hostLinGene x w bv = lin 100000 transposes_S128x128_S128x128_1_0 x w (shapeCast S1x128 bv hsc) := by
  unfold hostLinGene
  rw [row_cast_eq_bcast 128 bv hsc bcast_S128_S1x128_1]
  exact affine_of_dotGeneral 100000 128 128 x _ _ bcast_S1x128_S100000x128_0_1

/-- The same of the drug table. -/
theorem host_lin_drug (hsc : S128.ShapeCasts S1x128) (x : FVec Ideal S20000x128 .f32) (w : FVec Ideal S128x128 .f32)
    (bv : FVec Ideal S128 .f32) :
    hostLinDrug x w bv = lin 20000 transposes_S128x128_S128x128_1_0 x w (shapeCast S1x128 bv hsc) := by
  unfold hostLinDrug
  rw [row_cast_eq_bcast 128 bv hsc bcast_S128_S1x128_1]
  exact affine_of_dotGeneral 20000 128 128 x _ _ bcast_S1x128_S20000x128_0_1

/-- The half as a rank-0 constant spread over the gene table reads the same scalar everywhere. -/
theorem half_spread :
    broadcastInDim S100000x128 ![] bcast_S_S100000x128 (constant (F := Ideal) S_ .f32 0x3F000000#32)
      = broadcast (Tab 100000) (Scalar.ofBits (F := Ideal) .f32 0x3F000000#32) :=
  funext fun i => Cert.LibHostBroadcast.scalar_to_any _ bcast_S_S100000x128 i

/-- The reference's result is the layer of its arguments. -/
theorem reference_layer (hsc : S128.ShapeCasts S1x128) (m : (ℓ : Loc nD τ sig) → Buf (Elt Ideal) ℓ) (c : Dev nD) :
    Cert.ReferenceIdeal.Value.res_main_v87 (F := Ideal) m c
      = layer transposes_S128x128_S128x128_1_0 hsc
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17)) := by
  rw [reference_result, host_lin_gene hsc (m ((c.tc : Thread nD τ).loc main_arg0)) (m ((c.tc : Thread nD τ).loc main_arg2)) (m ((c.tc : Thread nD τ).loc main_arg3)),
    host_lin_gene hsc (m ((c.tc : Thread nD τ).loc main_arg0)) (m ((c.tc : Thread nD τ).loc main_arg8)) (m ((c.tc : Thread nD τ).loc main_arg9)),
    host_lin_gene hsc (m ((c.tc : Thread nD τ).loc main_arg0)) (m ((c.tc : Thread nD τ).loc main_arg6)) (m ((c.tc : Thread nD τ).loc main_arg7)),
    host_lin_drug hsc (m ((c.tc : Thread nD τ).loc main_arg1)) (m ((c.tc : Thread nD τ).loc main_arg4)) (m ((c.tc : Thread nD τ).loc main_arg5)),
    host_lin_drug hsc (m ((c.tc : Thread nD τ).loc main_arg1)) (m ((c.tc : Thread nD τ).loc main_arg10)) (m ((c.tc : Thread nD τ).loc main_arg11)), half_spread]
  rfl

end Cert.GraphLayer

end
-- ==== Proof.Fold.lean ====
/-
  The kernel program's result, read back through its eight segments.

  Boundary by boundary, from the launch: the first stretch casts three bias vectors to rows; the first tiled call
  leaves the three affine images of the gene table; the second stretch casts two more bias vectors; the second call
  leaves the two affine images of the drug table; the long stretch forms the three neighbourhood averages of those
  images along the edge lists (taken here as named functions, never opened); the two combines follow, and the last
  operation stacks the two tables. At every boundary a buffer a segment does not write is what it was, and a tiled
  call's output array is the one function of the arrays the call found (tiles to whole arrays). Reading the result
  buffer back through this chain gives the layer of the eighteen launch arrays.
-/
import proofs.«146550_j58265526338344_1_alg».proof.Proof.Blocks
import proofs.«146550_j58265526338344_1_alg».proof.Proof.Layer
import Idealize.ShloMosaic.Lib.StableHlo.Run

set_option maxRecDepth 16384

noncomputable section

namespace Cert.GraphLayer.Kernel

open Cert.KernelIdeal Cert.KernelIdeal.Gen Cert.GraphLayer
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! The first stretch casts three bias vectors to rows and touches nothing else. -/
theorem at1_arg0 : V1 m ρ c main_arg0 = (m ((c.tc : Thread nD τ).loc main_arg0)) := by show StableHlo.after hostOps0 (W0 m ρ c) (Proc.devRef .tc main_arg0) = _; after_results <;> rfl
theorem at1_arg2 : V1 m ρ c main_arg2 = (m ((c.tc : Thread nD τ).loc main_arg2)) := by show StableHlo.after hostOps0 (W0 m ρ c) (Proc.devRef .tc main_arg2) = _; after_results <;> rfl
theorem at1_arg6 : V1 m ρ c main_arg6 = (m ((c.tc : Thread nD τ).loc main_arg6)) := by show StableHlo.after hostOps0 (W0 m ρ c) (Proc.devRef .tc main_arg6) = _; after_results <;> rfl
theorem at1_arg8 : V1 m ρ c main_arg8 = (m ((c.tc : Thread nD τ).loc main_arg8)) := by show StableHlo.after hostOps0 (W0 m ρ c) (Proc.devRef .tc main_arg8) = _; after_results <;> rfl
theorem at1_v0 : V1 m ρ c main_v0 = (shapeCast S1x128 (m ((c.tc : Thread nD τ).loc main_arg3)) shapeCasts_S128_S1x128) := by show StableHlo.after hostOps0 (W0 m ρ c) (Proc.devRef .tc main_v0) = _; after_results <;> rfl
theorem at1_v1 : V1 m ρ c main_v1 = (shapeCast S1x128 (m ((c.tc : Thread nD τ).loc main_arg7)) shapeCasts_S128_S1x128) := by show StableHlo.after hostOps0 (W0 m ρ c) (Proc.devRef .tc main_v1) = _; after_results <;> rfl
theorem at1_v2 : V1 m ρ c main_v2 = (shapeCast S1x128 (m ((c.tc : Thread nD τ).loc main_arg9)) shapeCasts_S128_S1x128) := by show StableHlo.after hostOps0 (W0 m ρ c) (Proc.devRef .tc main_v2) = _; after_results <;> rfl

/-! The gene tables' three affine images. -/
theorem at2_v3_0 : W2 m ρ c (Proc.devRef .tc main_v3_0) = (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) :=
  (W2_arr m ρ c 7).trans ((geneint_array (V1 m ρ) c).trans (by rw [at1_arg0, at1_arg2, at1_v0]))
theorem at2_v3_1 : W2 m ρ c (Proc.devRef .tc main_v3_1) = (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) :=
  (W2_arr m ρ c 8).trans ((genetrt_array (V1 m ρ) c).trans (by rw [at1_arg0, at1_arg6, at1_v1]))
theorem at2_v3_2 : W2 m ρ c (Proc.devRef .tc main_v3_2) = (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) :=
  (W2_arr m ρ c 9).trans ((geneself_array (V1 m ρ) c).trans (by rw [at1_arg0, at1_arg8, at1_v2]))
theorem at2_arg1 : W2 m ρ c (Proc.devRef .tc main_arg1) = (m ((c.tc : Thread nD τ).loc main_arg1)) :=
  (W2_of_ne m ρ c main_arg1 (by decide)).trans (by show StableHlo.after hostOps0 (W0 m ρ c) (Proc.devRef .tc main_arg1) = _; after_results <;> rfl)
theorem at2_arg4 : W2 m ρ c (Proc.devRef .tc main_arg4) = (m ((c.tc : Thread nD τ).loc main_arg4)) :=
  (W2_of_ne m ρ c main_arg4 (by decide)).trans (by show StableHlo.after hostOps0 (W0 m ρ c) (Proc.devRef .tc main_arg4) = _; after_results <;> rfl)
theorem at2_arg5 : W2 m ρ c (Proc.devRef .tc main_arg5) = (m ((c.tc : Thread nD τ).loc main_arg5)) :=
  (W2_of_ne m ρ c main_arg5 (by decide)).trans (by show StableHlo.after hostOps0 (W0 m ρ c) (Proc.devRef .tc main_arg5) = _; after_results <;> rfl)
theorem at2_arg10 : W2 m ρ c (Proc.devRef .tc main_arg10) = (m ((c.tc : Thread nD τ).loc main_arg10)) :=
  (W2_of_ne m ρ c main_arg10 (by decide)).trans (by show StableHlo.after hostOps0 (W0 m ρ c) (Proc.devRef .tc main_arg10) = _; after_results <;> rfl)
theorem at2_arg11 : W2 m ρ c (Proc.devRef .tc main_arg11) = (m ((c.tc : Thread nD τ).loc main_arg11)) :=
  (W2_of_ne m ρ c main_arg11 (by decide)).trans (by show StableHlo.after hostOps0 (W0 m ρ c) (Proc.devRef .tc main_arg11) = _; after_results <;> rfl)
theorem at2_arg12 : W2 m ρ c (Proc.devRef .tc main_arg12) = (m ((c.tc : Thread nD τ).loc main_arg12)) :=
  (W2_of_ne m ρ c main_arg12 (by decide)).trans (by show StableHlo.after hostOps0 (W0 m ρ c) (Proc.devRef .tc main_arg12) = _; after_results <;> rfl)
theorem at2_arg13 : W2 m ρ c (Proc.devRef .tc main_arg13) = (m ((c.tc : Thread nD τ).loc main_arg13)) :=
  (W2_of_ne m ρ c main_arg13 (by decide)).trans (by show StableHlo.after hostOps0 (W0 m ρ c) (Proc.devRef .tc main_arg13) = _; after_results <;> rfl)
theorem at2_arg14 : W2 m ρ c (Proc.devRef .tc main_arg14) = (m ((c.tc : Thread nD τ).loc main_arg14)) :=
  (W2_of_ne m ρ c main_arg14 (by decide)).trans (by show StableHlo.after hostOps0 (W0 m ρ c) (Proc.devRef .tc main_arg14) = _; after_results <;> rfl)
theorem at2_arg15 : W2 m ρ c (Proc.devRef .tc main_arg15) = (m ((c.tc : Thread nD τ).loc main_arg15)) :=
  (W2_of_ne m ρ c main_arg15 (by decide)).trans (by show StableHlo.after hostOps0 (W0 m ρ c) (Proc.devRef .tc main_arg15) = _; after_results <;> rfl)
theorem at2_arg16 : W2 m ρ c (Proc.devRef .tc main_arg16) = (m ((c.tc : Thread nD τ).loc main_arg16)) :=
  (W2_of_ne m ρ c main_arg16 (by decide)).trans (by show StableHlo.after hostOps0 (W0 m ρ c) (Proc.devRef .tc main_arg16) = _; after_results <;> rfl)
theorem at2_arg17 : W2 m ρ c (Proc.devRef .tc main_arg17) = (m ((c.tc : Thread nD τ).loc main_arg17)) :=
  (W2_of_ne m ρ c main_arg17 (by decide)).trans (by show StableHlo.after hostOps0 (W0 m ρ c) (Proc.devRef .tc main_arg17) = _; after_results <;> rfl)

/-! The second stretch casts the two drug bias vectors to rows and touches nothing else. -/
theorem at3_arg1 : W3 m ρ c (Proc.devRef .tc main_arg1) = (m ((c.tc : Thread nD τ).loc main_arg1)) := by
  show StableHlo.after hostOps1 (W2 m ρ c) (Proc.devRef .tc main_arg1) = _
  after_results
  exact at2_arg1 m ρ c
theorem at3_arg4 : W3 m ρ c (Proc.devRef .tc main_arg4) = (m ((c.tc : Thread nD τ).loc main_arg4)) := by
  show StableHlo.after hostOps1 (W2 m ρ c) (Proc.devRef .tc main_arg4) = _
  after_results
  exact at2_arg4 m ρ c
theorem at3_arg10 : W3 m ρ c (Proc.devRef .tc main_arg10) = (m ((c.tc : Thread nD τ).loc main_arg10)) := by
  show StableHlo.after hostOps1 (W2 m ρ c) (Proc.devRef .tc main_arg10) = _
  after_results
  exact at2_arg10 m ρ c
theorem at3_arg12 : W3 m ρ c (Proc.devRef .tc main_arg12) = (m ((c.tc : Thread nD τ).loc main_arg12)) := by
  show StableHlo.after hostOps1 (W2 m ρ c) (Proc.devRef .tc main_arg12) = _
  after_results
  exact at2_arg12 m ρ c
theorem at3_arg13 : W3 m ρ c (Proc.devRef .tc main_arg13) = (m ((c.tc : Thread nD τ).loc main_arg13)) := by
  show StableHlo.after hostOps1 (W2 m ρ c) (Proc.devRef .tc main_arg13) = _
  after_results
  exact at2_arg13 m ρ c
theorem at3_arg14 : W3 m ρ c (Proc.devRef .tc main_arg14) = (m ((c.tc : Thread nD τ).loc main_arg14)) := by
  show StableHlo.after hostOps1 (W2 m ρ c) (Proc.devRef .tc main_arg14) = _
  after_results
  exact at2_arg14 m ρ c
theorem at3_arg15 : W3 m ρ c (Proc.devRef .tc main_arg15) = (m ((c.tc : Thread nD τ).loc main_arg15)) := by
  show StableHlo.after hostOps1 (W2 m ρ c) (Proc.devRef .tc main_arg15) = _
  after_results
  exact at2_arg15 m ρ c
theorem at3_arg16 : W3 m ρ c (Proc.devRef .tc main_arg16) = (m ((c.tc : Thread nD τ).loc main_arg16)) := by
  show StableHlo.after hostOps1 (W2 m ρ c) (Proc.devRef .tc main_arg16) = _
  after_results
  exact at2_arg16 m ρ c
theorem at3_arg17 : W3 m ρ c (Proc.devRef .tc main_arg17) = (m ((c.tc : Thread nD τ).loc main_arg17)) := by
  show StableHlo.after hostOps1 (W2 m ρ c) (Proc.devRef .tc main_arg17) = _
  after_results
  exact at2_arg17 m ρ c
theorem at3_v4 : W3 m ρ c (Proc.devRef .tc main_v4) = (shapeCast S1x128 (m ((c.tc : Thread nD τ).loc main_arg5)) shapeCasts_S128_S1x128) := by
  show StableHlo.after hostOps1 (W2 m ρ c) (Proc.devRef .tc main_v4) = _
  after_results
  rw [at2_arg5]
  rfl
theorem at3_v5 : W3 m ρ c (Proc.devRef .tc main_v5) = (shapeCast S1x128 (m ((c.tc : Thread nD τ).loc main_arg11)) shapeCasts_S128_S1x128) := by
  show StableHlo.after hostOps1 (W2 m ρ c) (Proc.devRef .tc main_v5) = _
  after_results
  rw [at2_arg11]
  rfl
theorem at3_v3_0 : W3 m ρ c (Proc.devRef .tc main_v3_0) = (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) := by
  show StableHlo.after hostOps1 (W2 m ρ c) (Proc.devRef .tc main_v3_0) = _
  after_results
  exact at2_v3_0 m ρ c
theorem at3_v3_1 : W3 m ρ c (Proc.devRef .tc main_v3_1) = (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) := by
  show StableHlo.after hostOps1 (W2 m ρ c) (Proc.devRef .tc main_v3_1) = _
  after_results
  exact at2_v3_1 m ρ c
theorem at3_v3_2 : W3 m ρ c (Proc.devRef .tc main_v3_2) = (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) := by
  show StableHlo.after hostOps1 (W2 m ρ c) (Proc.devRef .tc main_v3_2) = _
  after_results
  exact at2_v3_2 m ρ c

/-! The drug tables' two affine images; the gene images and the index vectors pass through. -/
theorem at4_v6_0 : W4 m ρ c (Proc.devRef .tc main_v6_0) = (lin 20000 transposes_S128x128_p1_0_S128x128 (m ((c.tc : Thread nD τ).loc main_arg1)) (m ((c.tc : Thread nD τ).loc main_arg4)) (shapeCast S1x128 (m ((c.tc : Thread nD τ).loc main_arg5)) shapeCasts_S128_S1x128)) :=
  (W4_arr m ρ c 5).trans ((drugtgt_array (V3 m ρ) c).trans (by rw [show V3 m ρ c main_arg1 = _ from at3_arg1 m ρ c, show V3 m ρ c main_arg4 = _ from at3_arg4 m ρ c, show V3 m ρ c main_v4 = _ from at3_v4 m ρ c]))
theorem at4_v6_1 : W4 m ρ c (Proc.devRef .tc main_v6_1) = (lin 20000 transposes_S128x128_p1_0_S128x128 (m ((c.tc : Thread nD τ).loc main_arg1)) (m ((c.tc : Thread nD τ).loc main_arg10)) (shapeCast S1x128 (m ((c.tc : Thread nD τ).loc main_arg11)) shapeCasts_S128_S1x128)) :=
  (W4_arr m ρ c 6).trans ((drugself_array (V3 m ρ) c).trans (by rw [show V3 m ρ c main_arg1 = _ from at3_arg1 m ρ c, show V3 m ρ c main_arg10 = _ from at3_arg10 m ρ c, show V3 m ρ c main_v5 = _ from at3_v5 m ρ c]))
theorem at4_v3_0 : W4 m ρ c (Proc.devRef .tc main_v3_0) = (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) :=
  (W4_of_ne m ρ c main_v3_0 (by decide)).trans (at3_v3_0 m ρ c)
theorem at4_v3_1 : W4 m ρ c (Proc.devRef .tc main_v3_1) = (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) :=
  (W4_of_ne m ρ c main_v3_1 (by decide)).trans (at3_v3_1 m ρ c)
theorem at4_v3_2 : W4 m ρ c (Proc.devRef .tc main_v3_2) = (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) :=
  (W4_of_ne m ρ c main_v3_2 (by decide)).trans (at3_v3_2 m ρ c)
theorem at4_arg12 : W4 m ρ c (Proc.devRef .tc main_arg12) = (m ((c.tc : Thread nD τ).loc main_arg12)) :=
  (W4_of_ne m ρ c main_arg12 (by decide)).trans (at3_arg12 m ρ c)
theorem at4_arg13 : W4 m ρ c (Proc.devRef .tc main_arg13) = (m ((c.tc : Thread nD τ).loc main_arg13)) :=
  (W4_of_ne m ρ c main_arg13 (by decide)).trans (at3_arg13 m ρ c)
theorem at4_arg14 : W4 m ρ c (Proc.devRef .tc main_arg14) = (m ((c.tc : Thread nD τ).loc main_arg14)) :=
  (W4_of_ne m ρ c main_arg14 (by decide)).trans (at3_arg14 m ρ c)
theorem at4_arg15 : W4 m ρ c (Proc.devRef .tc main_arg15) = (m ((c.tc : Thread nD τ).loc main_arg15)) :=
  (W4_of_ne m ρ c main_arg15 (by decide)).trans (at3_arg15 m ρ c)
theorem at4_arg16 : W4 m ρ c (Proc.devRef .tc main_arg16) = (m ((c.tc : Thread nD τ).loc main_arg16)) :=
  (W4_of_ne m ρ c main_arg16 (by decide)).trans (at3_arg16 m ρ c)
theorem at4_arg17 : W4 m ρ c (Proc.devRef .tc main_arg17) = (m ((c.tc : Thread nD τ).loc main_arg17)) :=
  (W4_of_ne m ρ c main_arg17 (by decide)).trans (at3_arg17 m ρ c)

/-! The long stretch: the three neighbourhood averages of the images, by name; two images pass through. -/
set_option maxHeartbeats 4000000 in
theorem at5_v25 : W5 m ρ c (Proc.devRef .tc main_v25) = (meanInt (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) (m ((c.tc : Thread nD τ).loc main_arg12)) (m ((c.tc : Thread nD τ).loc main_arg13))) := by
  show StableHlo.after hostOps2 (W4 m ρ c) (Proc.devRef .tc main_v25) = _
  after_results_simp
  rw [at4_v3_0, at4_arg12, at4_arg13]
  rfl
set_option maxHeartbeats 4000000 in
theorem at5_v44 : W5 m ρ c (Proc.devRef .tc main_v44) = (meanTgt (lin 20000 transposes_S128x128_p1_0_S128x128 (m ((c.tc : Thread nD τ).loc main_arg1)) (m ((c.tc : Thread nD τ).loc main_arg4)) (shapeCast S1x128 (m ((c.tc : Thread nD τ).loc main_arg5)) shapeCasts_S128_S1x128)) (m ((c.tc : Thread nD τ).loc main_arg14)) (m ((c.tc : Thread nD τ).loc main_arg15))) := by
  show StableHlo.after hostOps2 (W4 m ρ c) (Proc.devRef .tc main_v44) = _
  after_results_simp
  rw [at4_v6_0, at4_arg14, at4_arg15]
  rfl
set_option maxHeartbeats 4000000 in
theorem at5_v63 : W5 m ρ c (Proc.devRef .tc main_v63) = (meanTrt (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) (m ((c.tc : Thread nD τ).loc main_arg16)) (m ((c.tc : Thread nD τ).loc main_arg17))) := by
  show StableHlo.after hostOps2 (W4 m ρ c) (Proc.devRef .tc main_v63) = _
  after_results_simp
  rw [at4_v3_1, at4_arg16, at4_arg17]
  rfl
set_option maxHeartbeats 4000000 in
theorem at5_v3_2 : W5 m ρ c (Proc.devRef .tc main_v3_2) = (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) := by
  show StableHlo.after hostOps2 (W4 m ρ c) (Proc.devRef .tc main_v3_2) = _
  after_results_simp
  exact at4_v3_2 m ρ c
set_option maxHeartbeats 4000000 in
theorem at5_v6_1 : W5 m ρ c (Proc.devRef .tc main_v6_1) = (lin 20000 transposes_S128x128_p1_0_S128x128 (m ((c.tc : Thread nD τ).loc main_arg1)) (m ((c.tc : Thread nD τ).loc main_arg10)) (shapeCast S1x128 (m ((c.tc : Thread nD τ).loc main_arg11)) shapeCasts_S128_S1x128)) := by
  show StableHlo.after hostOps2 (W4 m ρ c) (Proc.devRef .tc main_v6_1) = _
  after_results_simp
  exact at4_v6_1 m ρ c

/-! The two combines. -/
theorem at6_v64 : W6 m ρ c (Proc.devRef .tc main_v64) = combine2 100000 (meanInt (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) (m ((c.tc : Thread nD τ).loc main_arg12)) (m ((c.tc : Thread nD τ).loc main_arg13))) (meanTgt (lin 20000 transposes_S128x128_p1_0_S128x128 (m ((c.tc : Thread nD τ).loc main_arg1)) (m ((c.tc : Thread nD τ).loc main_arg4)) (shapeCast S1x128 (m ((c.tc : Thread nD τ).loc main_arg5)) shapeCasts_S128_S1x128)) (m ((c.tc : Thread nD τ).loc main_arg14)) (m ((c.tc : Thread nD τ).loc main_arg15))) (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) :=
  (W6_arr m ρ c 3).trans ((genec_array (V5 m ρ) c).trans (by rw [show V5 m ρ c main_v25 = _ from at5_v25 m ρ c, show V5 m ρ c main_v44 = _ from at5_v44 m ρ c, show V5 m ρ c main_v3_2 = _ from at5_v3_2 m ρ c]))
theorem at6_v63 : W6 m ρ c (Proc.devRef .tc main_v63) = (meanTrt (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) (m ((c.tc : Thread nD τ).loc main_arg16)) (m ((c.tc : Thread nD τ).loc main_arg17))) :=
  (W6_of_ne m ρ c main_v63 (by decide)).trans (at5_v63 m ρ c)
theorem at6_v6_1 : W6 m ρ c (Proc.devRef .tc main_v6_1) = (lin 20000 transposes_S128x128_p1_0_S128x128 (m ((c.tc : Thread nD τ).loc main_arg1)) (m ((c.tc : Thread nD τ).loc main_arg10)) (shapeCast S1x128 (m ((c.tc : Thread nD τ).loc main_arg11)) shapeCasts_S128_S1x128)) :=
  (W6_of_ne m ρ c main_v6_1 (by decide)).trans (at5_v6_1 m ρ c)
theorem at7_v65 : W7 m ρ c (Proc.devRef .tc main_v65) = combine1 20000 (meanTrt (lin 100000 transposes_S128x128_p1_0_S128x128 (m ((c.tc : Thread nD τ).loc main_arg0)) (m ((c.tc : Thread nD τ).loc main_arg6)) (shapeCast S1x128 (m ((c.tc : Thread nD τ).loc main_arg7)) shapeCasts_S128_S1x128)) (m ((c.tc : Thread nD τ).loc main_arg16)) (m ((c.tc : Thread nD τ).loc main_arg17))) (lin 20000 transposes_S128x128_p1_0_S128x128 (m ((c.tc : Thread nD τ).loc main_arg1)) (m ((c.tc : Thread nD τ).loc main_arg10)) (shapeCast S1x128 (m ((c.tc : Thread nD τ).loc main_arg11)) shapeCasts_S128_S1x128)) :=
  (W7_arr m ρ c 2).trans ((drugc_array (V6 m ρ) c).trans (by rw [show V6 m ρ c main_v63 = _ from at6_v63 m ρ c, show V6 m ρ c main_v6_1 = _ from at6_v6_1 m ρ c]))
theorem at7_v64 : W7 m ρ c (Proc.devRef .tc main_v64) = combine2 100000 (meanInt (lin 100000 transposes_S128x128_p1_0_S128x128 (m ((c.tc : Thread nD τ).loc main_arg0)) (m ((c.tc : Thread nD τ).loc main_arg2)) (shapeCast S1x128 (m ((c.tc : Thread nD τ).loc main_arg3)) shapeCasts_S128_S1x128)) (m ((c.tc : Thread nD τ).loc main_arg12)) (m ((c.tc : Thread nD τ).loc main_arg13))) (meanTgt (lin 20000 transposes_S128x128_p1_0_S128x128 (m ((c.tc : Thread nD τ).loc main_arg1)) (m ((c.tc : Thread nD τ).loc main_arg4)) (shapeCast S1x128 (m ((c.tc : Thread nD τ).loc main_arg5)) shapeCasts_S128_S1x128)) (m ((c.tc : Thread nD τ).loc main_arg14)) (m ((c.tc : Thread nD τ).loc main_arg15))) (lin 100000 transposes_S128x128_p1_0_S128x128 (m ((c.tc : Thread nD τ).loc main_arg0)) (m ((c.tc : Thread nD τ).loc main_arg8)) (shapeCast S1x128 (m ((c.tc : Thread nD τ).loc main_arg9)) shapeCasts_S128_S1x128)) :=
  (W7_of_ne m ρ c main_v64 (by decide)).trans (at6_v64 m ρ c)

/-- The kernel program's result buffer ends at the layer of the launch arrays. -/
theorem kernel_layer : W8 m ρ c (Proc.devRef .tc main_v66)
    = layer transposes_S128x128_p1_0_S128x128 shapeCasts_S128_S1x128
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17)) := by
  show StableHlo.after hostOps4 (W7 m ρ c) (Proc.devRef .tc main_v66) = _
  after_results
  rw [at7_v64, at7_v65]
  rfl

end Cert.GraphLayer.Kernel

end
-- ==== Proof.lean ====
/-
  One layer of message passing over a graph with gene nodes and drug nodes: the tiled program against its reference.

  Both programs compute, on the extended reals,
      genes : 1/2·( mean over gene→gene edges of (h_gene·W_intᵀ + b_int) + mean over drug→gene edges of (h_drug·W_tgtᵀ + b_tgt) )
                + (h_gene·W_slgᵀ + b_slg)
      drugs : mean over gene→drug edges of (h_gene·W_trtᵀ + b_trt) + (h_drug·W_sldᵀ + b_sld)
  and stack the two tables. The tiled program forms the five affine images tile by tile (5000 rows at a time, the
  matrix unit fed 16-bit copies, which on the extended reals are the numbers themselves), takes the neighbourhood
  averages with the very operations the reference uses, and combines tile by tile again. A row of an affine image
  depends only on that row of the table, and the combines act entry by entry, so tiling changes nothing; the averages
  are compared as units and never opened. No law used here needs the inputs to be finite.

  The three runs terminate with the arguments unchanged; no operation was rewritten between the program as printed and
  its idealization; and from memories that agree on the arguments both idealized programs end with the same table.
-/
import proofs.«146550_j58265526338344_1_alg».proof.Defs
import proofs.«146550_j58265526338344_1_alg».proof.Proof.Gen.Kernel
import proofs.«146550_j58265526338344_1_alg».proof.Proof.Gen.Kernel.Frame
import proofs.«146550_j58265526338344_1_alg».proof.Proof.Gen.KernelIdeal
import proofs.«146550_j58265526338344_1_alg».proof.Proof.Gen.KernelIdeal.Frame
import proofs.«146550_j58265526338344_1_alg».proof.Proof.Gen.ReferenceIdeal
import proofs.«146550_j58265526338344_1_alg».proof.Proof.Gen.ReferenceIdeal.Run
import proofs.«146550_j58265526338344_1_alg».proof.Proof.Gen.Pre_finite_inputs
import proofs.«146550_j58265526338344_1_alg».proof.Proof.RunAll
import proofs.«146550_j58265526338344_1_alg».proof.Proof.Fold
import proofs.«146550_j58265526338344_1_alg».proof.Proof.Layer
import Idealize.ShloMosaic.Adequacy
import Idealize.ShloMosaic.Init

noncomputable section

namespace Cert.Proof

open Idealize.ShloMosaic Idealize.SL.Sem

/-- The program as printed runs and leaves its arguments alone. -/
theorem frame_printed : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the arguments: the tiled one by reading its result back through its
    segments, the reference by its composed term; the arguments agree, so the tables agree. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.GraphLayer.Kernel.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W8 m ρ c (Proc.devRef .tc Cert.KernelIdeal.main_v66)
  obtain ⟨h0, h1, h2, h3, h4, h5, h6, h7, h8, h9, h10, h11, h12, h13, h14, h15, h16, h17⟩ := hagree c
  rw [Cert.GraphLayer.reference_layer Cert.KernelIdeal.Facts₀.shapeCasts_S128_S1x128 m' c,
    Cert.GraphLayer.Kernel.kernel_layer m ρ c, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_printed, frame_ideal, frame_reference, preserves, algebraic⟩

end Cert.Proof

end
